-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v1)) (v2 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_v2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v2) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512x16x16 : Shape := ⟨4, ![256, 512, 16, 16]⟩
abbrev S256x32x512 : Shape := ⟨3, ![256, 32, 512]⟩
abbrev S1 : Shape := ⟨1, ![1]⟩
abbrev S_ : Shape := ⟨0, ![]⟩

class Facts : Prop where
  bcast_S_S256x512x16x16 : S_.BroadcastsInDim S256x512x16x16 (![] : Fin 0 → Fin S256x512x16x16.rank)
  reducesTo_S256x512x16x16_S_d0_1_2_3 : S256x512x16x16.ReducesTo [0, 1, 2, 3] S_
  h_S_ : 0 < S_.numel
  bcast_S_S256x32x512 : S_.BroadcastsInDim S256x32x512 (![] : Fin 0 → Fin S256x32x512.rank)
  reducesTo_S256x32x512_S_d0_1_2 : S256x32x512.ReducesTo [0, 1, 2] S_
  bcast_S_S1 : S_.BroadcastsInDim S1 (![] : Fin 0 → Fin S1.rank)
  reducesTo_S1_S_d0 : S1.ReducesTo [0] S_

variable [Facts]

def fn {F : FTy → Type} [FloatOps F] (main_arg0 : FVec F S256x512x16x16 .f32) (main_arg1 : FVec F S256x32x512 .f32) (main_arg2 : FVec F S1 .f32) : IVec S_ 1 :=
  let main_v0 : FVec F S256x512x16x16 .f32 := Host.absf main_arg0
  let main_cst : FVec F S_ .f32 := constant S_ .f32 0x7F800000#32
  let main_v1 : FVec F S256x512x16x16 .f32 := broadcastInDim S256x512x16x16 ![] bcast_S_S256x512x16x16 main_cst
  let main_v2 : IVec S256x512x16x16 1 := cmpf .olt main_v0 main_v1
  let main_c : IVec S_ 1 := constantI S_ 1 1#1
  let main_v3 : IVec S_ 1 := (fun x v => Host.reduce IntOp.andi x v reducesTo_S256x512x16x16_S_d0_1_2_3 h_S_) main_v2 main_c
  let main_v4 : FVec F S256x32x512 .f32 := Host.absf main_arg1
  let main_cst_0 : FVec F S_ .f32 := constant S_ .f32 0x7F800000#32
  let main_v5 : FVec F S256x32x512 .f32 := broadcastInDim S256x32x512 ![] bcast_S_S256x32x512 main_cst_0
  let main_v6 : IVec S256x32x512 1 := cmpf .olt main_v4 main_v5
  let main_c_1 : IVec S_ 1 := constantI S_ 1 1#1
  let main_v7 : IVec S_ 1 := (fun x v => Host.reduce IntOp.andi x v reducesTo_S256x32x512_S_d0_1_2 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S256x512x16x16 : Shape := ⟨4, ![256, 512, 16, 16]⟩
abbrev S256x32x512 : Shape := ⟨3, ![256, 32, 512]⟩
abbrev S1 : Shape := ⟨1, ![1]⟩
abbrev S256x512x256 : Shape := ⟨3, ![256, 512, 256]⟩
abbrev S256x512 : Shape := ⟨2, ![256, 512]⟩
abbrev S64x128x256 : Shape := ⟨3, ![64, 128, 256]⟩
abbrev S64x128 : Shape := ⟨2, ![64, 128]⟩
abbrev S64x32x512 : Shape := ⟨3, ![64, 32, 512]⟩
abbrev S64x512 : Shape := ⟨2, ![64, 512]⟩
abbrev S256x256 : Shape := ⟨2, ![256, 256]⟩
abbrev S256 : Shape := ⟨1, ![256]⟩
abbrev S256x1 : Shape := ⟨2, ![256, 1]⟩
abbrev S512x256 : Shape := ⟨2, ![512, 256]⟩
abbrev S_ : Shape := ⟨0, ![]⟩

abbrev nBuf : Space → Nat
  | .hbm => 10
  | .vmem => 11
  | .smem => 0
  | _ => 0

abbrev bufTy : (tb : Table) → Fin (tcTables nBuf tb) → BufTy
  | .hbm, ⟨0, _⟩ => ⟨S256x512x16x16, .f32⟩
  | .hbm, ⟨1, _⟩ => ⟨S256x32x512, .f32⟩
  | .hbm, ⟨2, _⟩ => ⟨S1, .f32⟩
  | .hbm, ⟨3, _⟩ => ⟨S256x512x256, .f32⟩
  | .hbm, ⟨4, _⟩ => ⟨S256x512, .f32⟩
  | .hbm, ⟨5, _⟩ => ⟨S256x512, .f32⟩
  | .hbm, ⟨6, _⟩ => ⟨S256x256, .f32⟩
  | .hbm, ⟨7, _⟩ => ⟨S_, .f32⟩
  | .hbm, ⟨8, _⟩ => ⟨S256x256, .f32⟩
  | .hbm, ⟨9, _⟩ => ⟨S256x256, .f32⟩
  | .local _ .vmem, ⟨0, _⟩ => ⟨S64x128x256, .f32⟩
  | .local _ .vmem, ⟨1, _⟩ => ⟨S64x128x256, .f32⟩
  | .local _ .vmem, ⟨2, _⟩ => ⟨S64x128, .f32⟩
  | .local _ .vmem, ⟨3, _⟩ => ⟨S64x128, .f32⟩
  | .local _ .vmem, ⟨4, _⟩ => ⟨S64x32x512, .f32⟩
  | .local _ .vmem, ⟨5, _⟩ => ⟨S64x32x512, .f32⟩
  | .local _ .vmem, ⟨6, _⟩ => ⟨S64x512, .f32⟩
  | .local _ .vmem, ⟨7, _⟩ => ⟨S64x512, .f32⟩
  | .local _ .vmem, ⟨8, _⟩ => ⟨S256x512, .f32⟩
  | .local _ .vmem, ⟨9, _⟩ => ⟨S256x512, .f32⟩
  | .local _ .vmem, ⟨10, _⟩ => ⟨S256x256, .f32⟩
  | _, _ => ⟨S256x512x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg2_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem1_0 : DmaSem sig := 9
abbrev cc2_sem2_0 : DmaSem sig := 10

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S64x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x32x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S256x512 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S256x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

class Facts₀ : Prop where
  shapeCasts_S256x512x16x16_S256x512x256 : S256x512x16x16.ShapeCasts S256x512x256
  inb_S64x128x256_S64x128x256_0_0_0 : ∀ a, (![0, 0, 0] : Fin 3 → Nat) a + S64x128x256.size a ≤ S64x128x256.size a
  h_S64x128x256 : 0 < S64x128x256.numel
  shapeCasts_S64x128x256_S64x128x256 : S64x128x256.ShapeCasts S64x128x256
  reduces_S64x128x256_S64x128 : S64x128x256.Reduces [2] S64x128
  inb_S64x128_S64x128_0_0 : ∀ a, (![0, 0] : Fin 2 → Nat) a + S64x128.size a ≤ S64x128.size a
  h_S64x128 : 0 < S64x128.numel
  inb_S64x32x512_S64x32x512_0_0_0 : ∀ a, (![0, 0, 0] : Fin 3 → Nat) a + S64x32x512.size a ≤ S64x32x512.size a
  h_S64x32x512 : 0 < S64x32x512.numel
  reduces_S64x32x512_S64x512 : S64x32x512.Reduces [1] S64x512
  inb_S64x512_S64x512_0_0 : ∀ a, (![0, 0] : Fin 2 → Nat) a + S64x512.size a ≤ S64x512.size a
  h_S64x512 : 0 < S64x512.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  reduces_S256x512_S256 : S256x512.Reduces [1] S256
  shapeCasts_S256_S256x1 : S256.ShapeCasts S256x1
  broadcasts_S256x1_S256x512 : S256x1.Broadcasts S256x512
  bitsLt_bf16_f32 : FTy.bits .bf16 < FTy.bits .f32
  transposes_S256x512_p1_0_S512x256 : S256x512.Transposes [1, 0] S512x256
  inb_S256x256_S256x256_0_0 : ∀ a, (![0, 0] : Fin 2 → Nat) a + S256x256.size a ≤ S256x256.size a
  h_S256x256 : 0 < S256x256.numel
  shapeCasts_S1_S_ : S1.ShapeCasts S_
  bcast_S_S256x256 : S_.BroadcastsInDim S256x256 (![] : Fin 0 → Fin S256x256.rank)
  dot_S256x512_S512x256_S256x256_1_0_0_1_n_n_wf : DotDims.WF S256x512 S512x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128x256.size a ≤ S256x512x256.size a
  hwx0_0 : ∀ i : grid0.Coords, EltTy.bits .f32 = 32 ∨ (Rect.block (s := S256x512x256) S64x128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S256x512.size a
  hwx0_1 : ∀ i : grid0.Coords, EltTy.bits .f32 = 32 ∨ (Rect.block (s := S256x512) S64x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x32x512.size a ≤ S256x32x512.size a
  hwx1_0 : ∀ i : grid1.Coords, EltTy.bits .f32 = 32 ∨ (Rect.block (s := S256x32x512) S64x32x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x512.size a ≤ S256x512.size a
  hwx1_1 : ∀ i : grid1.Coords, EltTy.bits .f32 = 32 ∨ (Rect.block (s := S256x512) S64x512.size (cc1_transform_1 i) (hinb1_1 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S256x512.size a ≤ S256x512.size a
  hwx2_0 : ∀ i : grid2.Coords, EltTy.bits .f32 = 32 ∨ (Rect.block (s := S256x512) S256x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x512.size a ≤ S256x512.size a
  hwx2_1 : ∀ i : grid2.Coords, EltTy.bits .f32 = 32 ∨ (Rect.block (s := S256x512) S256x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)

variable [Facts₀]

def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf

abbrev win0_0 : Pipeline.Window sig grid0 :=
  Pipeline.Window.ofSpec (Memref.whole main_v0) S64x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S64x32x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S64x512.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v1) S256x512.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v2) S256x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S256x256.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S256x512x16x16 : Shape := ⟨4, ![256, 512, 16, 16]⟩
abbrev S256x32x512 : Shape := ⟨3, ![256, 32, 512]⟩
abbrev S1 : Shape := ⟨1, ![1]⟩
abbrev S_ : Shape := ⟨0, ![]⟩
abbrev S256x512 : Shape := ⟨2, ![256, 512]⟩
abbrev S256 : Shape := ⟨1, ![256]⟩
abbrev S256x1 : Shape := ⟨2, ![256, 1]⟩
abbrev S256x256 : Shape := ⟨2, ![256, 256]⟩

abbrev nBuf : Space → Nat
  | .hbm => 37
  | .vmem => 0
  | .smem => 0
  | _ => 0

abbrev bufTy : (tb : Table) → Fin (tcTables nBuf tb) → BufTy
  | .hbm, ⟨0, _⟩ => ⟨S256x512x16x16, .f32⟩
  | .hbm, ⟨1, _⟩ => ⟨S256x32x512, .f32⟩
  | .hbm, ⟨2, _⟩ => ⟨S1, .f32⟩
  | .hbm, ⟨3, _⟩ => ⟨S_, .f32⟩
  | .hbm, ⟨4, _⟩ => ⟨S256x512, .f32⟩
  | .hbm, ⟨5, _⟩ => ⟨S_, .f32⟩
  | .hbm, ⟨6, _⟩ => ⟨S256x512, .f32⟩
  | .hbm, ⟨7, _⟩ => ⟨S256x512, .f32⟩
  | .hbm, ⟨8, _⟩ => ⟨S_, .f32⟩
  | .hbm, ⟨9, _⟩ => ⟨S256x512, .f32⟩
  | .hbm, ⟨10, _⟩ => ⟨S_, .f32⟩
  | .hbm, ⟨11, _⟩ => ⟨S256x512, .f32⟩
  | .hbm, ⟨12, _⟩ => ⟨S256x512, .f32⟩
  | .hbm, ⟨13, _⟩ => ⟨S256x512, .f32⟩
  | .hbm, ⟨14, _⟩ => ⟨S_, .f32⟩
  | .hbm, ⟨15, _⟩ => ⟨S256, .f32⟩
  | .hbm, ⟨16, _⟩ => ⟨S256x1, .f32⟩
  | .hbm, ⟨17, _⟩ => ⟨S256x1, .f32⟩
  | .hbm, ⟨18, _⟩ => ⟨S_, .f32⟩
  | .hbm, ⟨19, _⟩ => ⟨S256x1, .f32⟩
  | .hbm, ⟨20, _⟩ => ⟨S256x1, .f32⟩
  | .hbm, ⟨21, _⟩ => ⟨S256x512, .f32⟩
  | .hbm, ⟨22, _⟩ => ⟨S256x512, .f32⟩
  | .hbm, ⟨23, _⟩ => ⟨S256x512, .f32⟩
  | .hbm, ⟨24, _⟩ => ⟨S_, .f32⟩
  | .hbm, ⟨25, _⟩ => ⟨S256, .f32⟩
  | .hbm, ⟨26, _⟩ => ⟨S256x1, .f32⟩
  | .hbm, ⟨27, _⟩ => ⟨S256x1, .f32⟩
  | .hbm, ⟨28, _⟩ => ⟨S_, .f32⟩
  | .hbm, ⟨29, _⟩ => ⟨S256x1, .f32⟩
  | .hbm, ⟨30, _⟩ => ⟨S256x1, .f32⟩
  | .hbm, ⟨31, _⟩ => ⟨S256x512, .f32⟩
  | .hbm, ⟨32, _⟩ => ⟨S256x512, .f32⟩
  | .hbm, ⟨33, _⟩ => ⟨S256x256, .f32⟩
  | .hbm, ⟨34, _⟩ => ⟨S_, .f32⟩
  | .hbm, ⟨35, _⟩ => ⟨S256x256, .f32⟩
  | .hbm, ⟨36, _⟩ => ⟨S256x256, .f32⟩
  | _, _ => ⟨S256x512x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_v5 : Ref sig .tc := ⟨.hbm, 12, rfl⟩
abbrev main_call0_v0 : Ref sig .tc := ⟨.hbm, 13, rfl⟩
abbrev main_call0_cst : Ref sig .tc := ⟨.hbm, 14, rfl⟩
abbrev main_call0_v1 : Ref sig .tc := ⟨.hbm, 15, rfl⟩
abbrev main_call0_v2 : Ref sig .tc := ⟨.hbm, 16, rfl⟩
abbrev main_v6 : Ref sig .tc := ⟨.hbm, 17, rfl⟩
abbrev main_cst_3 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call1_v0 : Ref sig .tc := ⟨.hbm, 23, rfl⟩
abbrev main_call1_cst : Ref sig .tc := ⟨.hbm, 24, rfl⟩
abbrev main_call1_v1 : Ref sig .tc := ⟨.hbm, 25, rfl⟩
abbrev main_call1_v2 : Ref sig .tc := ⟨.hbm, 26, rfl⟩
abbrev main_v11 : Ref sig .tc := ⟨.hbm, 27, rfl⟩
abbrev main_cst_4 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩

abbrev nD : Nat := 1
abbrev τ : Topo := Topo.v7x

variable {F : FTy → Type} [FloatOps F]

class Facts₀ : Prop where
  reducesTo_S256x512x16x16_S256x512_d2_3 : S256x512x16x16.ReducesTo [2, 3] S256x512
  h_S_ : 0 < S_.numel
  bcast_S_S256x512 : S_.BroadcastsInDim S256x512 (![] : Fin 0 → Fin S256x512.rank)
  reducesTo_S256x32x512_S256x512_d1 : S256x32x512.ReducesTo [1] S256x512
  reducesTo_S256x512_S256_d1 : S256x512.ReducesTo [1] S256
  bcast_S256_S256x1_0 : S256.BroadcastsInDim S256x1 (![0] : Fin 1 → Fin S256x1.rank)
  bcast_S_S256x1 : S_.BroadcastsInDim S256x1 (![] : Fin 0 → Fin S256x1.rank)
  bcast_S256x1_S256x512_0_1 : S256x1.BroadcastsInDim S256x512 (![0, 1] : Fin 2 → Fin S256x512.rank)
  shapeCasts_S1_S_ : S1.ShapeCasts S_
  bcast_S_S256x256 : S_.BroadcastsInDim S256x256 (![] : Fin 0 → Fin S256x256.rank)
  dot_S256x512_S256x512_S256x256_1_1_0_0_n_n_wf : DotDims.WF S256x512 S256x512 S256x256 [1] [1] [0] [0] [] []

variable [Facts₀]

def dot_S256x512_S256x512_S256x256_1_1_0_0_n_n : DotDims S256x512 S256x512 S256x256 where
  lhsContracting := [1]
  rhsContracting := [1]
  lhsNonContracting := [0]
  rhsNonContracting := [0]
  lhsBatch := []
  rhsBatch := []
  wf := dot_S256x512_S256x512_S256x256_1_1_0_0_n_n_wf

class Facts : Prop extends Facts₀ where

variable [Facts]
-- ==== Proof.LibIndexSums.lean ====
/-
  Finite sums over an array's index set, re-bracketed: general lemmas over any commutative additive monoid.

  * A sum over the index set of a rank-3 or rank-4 shape is the nested sum over its coordinates (the rank-2 case is
    the library's own).
  * A sum over Fin (m * n) is the sum over the quotient a : Fin m and the remainder b : Fin n of the value at
    b + n * a — the step that turns a sum over a long axis into a sum over blocks and positions inside a block, or a
    sum over a row-major grid of points into a sum over the grid's two coordinates.
-/
import Idealize.ShloMosaic.Lib.ValueIdx

open scoped BigOperators

namespace Cert.IndexSums

open Idealize.ShloMosaic Idealize.ShloMosaic.ValueIdx

variable {M : Type*} [AddCommMonoid M]

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges … -/
def idxEquiv4 {n0 n1 n2 n3 : Nat} :
    (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- A sum over `Fin (m * n)` is the sum over the quotient `a : Fin m` and the remainder `b : Fin n` of the value at
    `b + n * a`. -/
theorem sum_fin_mul {m n : Nat} (f : Fin (m * n) → M) :
    ∑ k, f k = ∑ a : Fin m, ∑ b : Fin n, f (finProdFinEquiv (a, b)) := by
  rw [← Equiv.sum_comp finProdFinEquiv f, Fintype.sum_prod_type]

end Cert.IndexSums
-- ==== Proof.Pooling.lean ====
/-
  The mathematics of the two programs, stated once over the extended reals, with no program in sight.

  Both programs pool two feature arrays into [256, 512] embedding matrices and then compare them:
    * the image embedding is the mean over the 16 × 16 positions, E₁[b, c] = (Σ_h Σ_w x[b, c, h, w]) / 256;
    * the radiomics embedding is the mean over the 32 regions, E₂[b, d] = (Σ_r y[b, r, d]) / 32;
    * each row of an embedding is divided by its Euclidean norm, floored at a small positive constant,
      u(E)[r, k] = E[r, k] / max(√(Σ_k' E[r, k']²), ε);
    * the cosine matrix is C[i, j] = Σ_k u(E₁)[i, k] · u(E₂)[j, k] (and is afterwards divided by the temperature).

  One program takes a mean by multiplying the sum with the power of two 2⁻⁸ (or 2⁻⁵), the other by dividing by 256 (or
  32). On the extended reals division by a nonzero real IS multiplication by its reciprocal, at the infinities too, so
  the two agree with no finiteness assumption. One program sums the 256 positions of the row-major flattening
  x'[b, c, 16·h + w] = x[b, c, h, w], the other sums over h and w; a finite sum in a commutative monoid does not depend
  on how its index set is split, and addition of extended reals is commutative and associative.
-/
import Idealize.ShloMosaic.PureOps.Ideal.Laws
import Idealize.ShloMosaic.Lib.ValueIdx
import Idealize.ShloMosaic.Lib.Pipeline.Value
import proofs.«152457_j10574209483557_2_alg».proof.Proof.LibIndexSums

noncomputable section

open scoped BigOperators

namespace Cert.Similarity

open Idealize.ShloMosaic Idealize.ShloMosaic.ValueIdx

/-- The image features, [batch, channel, height, width]. -/
abbrev Img : Shape := ⟨4, ![256, 512, 16, 16]⟩
/-- The same with the two spatial axes flattened row-major. -/
abbrev Flat : Shape := ⟨3, ![256, 512, 256]⟩
/-- The radiomics features, [batch, region, feature]. -/
abbrev Rad : Shape := ⟨3, ![256, 32, 512]⟩
/-- An embedding matrix, [batch, feature]. -/
abbrev Emb : Shape := ⟨2, ![256, 512]⟩
/-- The similarity matrix, [image, radiomics]. -/
abbrev Sim : Shape := ⟨2, ![256, 256]⟩

/-! ## The four float constants of the means -/

/-- The word of 256.0 denotes the real 256. -/
theorem word_256 : Ideal.ofBits .f32 0x43800000#32 = ((256 : ℝ) : EReal) := by
  simp [Ideal.ofBits, Ideal.ieee, -EReal.coe_mul]; norm_num
/-- The word of 2⁻⁸ denotes the real 1/256. -/
theorem word_inv256 : Ideal.ofBits .f32 0x3B800000#32 = ((1 / 256 : ℝ) : EReal) := by
  simp [Ideal.ofBits, Ideal.ieee, -EReal.coe_mul]; norm_num
/-- The word of 32.0 denotes the real 32. -/
theorem word_32 : Ideal.ofBits .f32 0x42000000#32 = ((32 : ℝ) : EReal) := by
  simp [Ideal.ofBits, Ideal.ieee, -EReal.coe_mul]; norm_num
/-- The word of 2⁻⁵ denotes the real 1/32. -/
theorem word_inv32 : Ideal.ofBits .f32 0x3D000000#32 = ((1 / 32 : ℝ) : EReal) := by
  simp [Ideal.ofBits, Ideal.ieee, -EReal.coe_mul]; norm_num

/-- A product with 2⁻⁸ is the quotient by 256, for every extended real. -/
theorem mul_inv256 (s : EReal) :
    s * Ideal.ofBits .f32 0x3B800000#32 = Ideal.div s (Ideal.ofBits .f32 0x43800000#32) := by
  rw [word_256, word_inv256, Ideal.div_coe (by norm_num : (256 : ℝ) ≠ 0)]
/-- A product with 2⁻⁵ is the quotient by 32, for every extended real. -/
theorem mul_inv32 (s : EReal) :
    s * Ideal.ofBits .f32 0x3D000000#32 = Ideal.div s (Ideal.ofBits .f32 0x42000000#32) := by
  rw [word_32, word_inv32, Ideal.div_coe (by norm_num : (32 : ℝ) ≠ 0)]

/-! ## The pooled embeddings -/

/-- E₁[b, c]: the mean of x[b, c, ·, ·] over the 16 × 16 positions. -/
def imageMean (x : Img.Idx → EReal) (b : Fin 256) (c : Fin 512) : EReal :=
  Ideal.div (∑ h : Fin 16, ∑ w : Fin 16, x (ix4 b c h w)) (Ideal.ofBits .f32 0x43800000#32)

/-- E₂[b, d]: the mean of y[b, ·, d] over the 32 regions. -/
def radMean (y : Rad.Idx → EReal) (b : Fin 256) (d : Fin 512) : EReal :=
  Ideal.div (∑ r : Fin 32, y (ix3 b r d)) (Ideal.ofBits .f32 0x42000000#32)

/-- E₁ as a [256, 512] array. -/
def imageEmb (x : Img.Idx → EReal) : Emb.Idx → EReal :=
  fun i => imageMean x ⟨(i 0).val, idx2_lt0 i⟩ ⟨(i 1).val, idx2_lt1 i⟩
/-- E₂ as a [256, 512] array. -/
def radEmb (y : Rad.Idx → EReal) : Emb.Idx → EReal :=
  fun i => radMean y ⟨(i 0).val, idx2_lt0 i⟩ ⟨(i 1).val, idx2_lt1 i⟩

theorem imageEmb_apply (x : Img.Idx → EReal) (b : Fin 256) (c : Fin 512) : imageEmb x (ix2 b c) = imageMean x b c := rfl
theorem radEmb_apply (y : Rad.Idx → EReal) (b : Fin 256) (d : Fin 512) : radEmb y (ix2 b d) = radMean y b d := rfl

/-! ## Row normalisation and the cosine matrix -/

/-- The Euclidean norm of row r of an embedding, floored at ε (the float nearest 10⁻¹²). -/
def rowNorm (e : Emb.Idx → EReal) (r : Fin 256) : EReal :=
  max (Ideal.sqrt (∑ k : Fin 512, e (ix2 r k) * e (ix2 r k))) (Ideal.ofBits .f32 0x2B8CBCCC#32)

/-- u(E)[r, k]: the entry divided by its row's floored norm. -/
def unitRow (e : Emb.Idx → EReal) (r : Fin 256) (k : Fin 512) : EReal :=
  Ideal.div (e (ix2 r k)) (rowNorm e r)

/-- C[i, j] = Σ_k u(E₁)[i, k] · u(E₂)[j, k], as a [256, 256] array. -/
def cosine (e₁ e₂ : Emb.Idx → EReal) : Sim.Idx → EReal :=
  fun i => ∑ k : Fin 512, unitRow e₁ ⟨(i 0).val, idx2_lt0 i⟩ k * unitRow e₂ ⟨(i 1).val, idx2_lt1 i⟩ k

theorem cosine_apply (e₁ e₂ : Emb.Idx → EReal) (i j : Fin 256) :
    cosine e₁ e₂ (ix2 i j) = ∑ k : Fin 512, unitRow e₁ i k * unitRow e₂ j k := rfl

/-! ## The flattened image array: a sum over 256 positions is the sum over 16 × 16 -/

/-- The row-major flattening of the two spatial axes read at position 16·h + w is the array at (h, w); so the sum over
    the 256 flat positions of (b, c) is the double sum over h and w. -/
theorem sum_flat (x : Img.Idx → EReal) (hc : Img.ShapeCasts Flat) (b : Fin 256) (c : Fin 512) :
    ∑ k : Fin 256, shapeCast Flat x hc (ix3 b c k) = ∑ h : Fin 16, ∑ w : Fin 16, x (ix4 b c h w) := by
  refine (Cert.IndexSums.sum_fin_mul (m := 16) (n := 16) fun k => shapeCast Flat x hc (ix3 b c k)).trans ?_
  refine Finset.sum_congr rfl fun h _ => Finset.sum_congr rfl fun w _ => ?_
  refine shapeCast_apply x hc _ (ix4 b c h w) ?_
  rw [Shape.rowMajor_val_four, Shape.rowMajor_val_three]
  show ((b.val * 512 + c.val) * 16 + h.val) * 16 + w.val = (b.val * 512 + c.val) * 256 + (w.val + 16 * h.val)
  omega

/-- The mean of the flattened array taken as "sum of 256 positions times 2⁻⁸" is E₁. -/
theorem flat_mean (x : Img.Idx → EReal) (hc : Img.ShapeCasts Flat) (b : Fin 256) (c : Fin 512) :
    (∑ k : Fin 256, shapeCast Flat x hc (ix3 b c k)) * Ideal.ofBits .f32 0x3B800000#32 = imageMean x b c := by
  rw [sum_flat, mul_inv256]; rfl

/-- The mean over the regions taken as "sum of 32 entries times 2⁻⁵" is E₂. -/
theorem rad_mean (y : Rad.Idx → EReal) (b : Fin 256) (d : Fin 512) :
    (∑ r : Fin 32, y (ix3 b r d)) * Ideal.ofBits .f32 0x3D000000#32 = radMean y b d := by
  rw [mul_inv32]; rfl

/-! ## A host sum over the two spatial axes, read at an index -/

/-- The host's sum of a [256, 512, 16, 16] array over its last two axes, from an initial value, is at (b, c) the
    initial value plus Σ_h Σ_w x[b, c, h, w]: the indices that reduce to (b, c) are exactly those whose first two
    coordinates are b and c. -/
theorem hostSum_hw (x : Img.Idx → EReal) (hr : Img.ReducesTo [2, 3] Emb) (init : EReal) (b : Fin 256) (c : Fin 512) :
    Ideal.hostReduceAdd hr x init (ix2 b c) = init + ∑ h : Fin 16, ∑ w : Fin 16, x (ix4 b c h w) := by
  have hdrop : ∀ (a : Fin 256) (b' : Fin 512) (h : Fin 16) (w : Fin 16), hr.drop (ix4 a b' h w) = ix2 a b' := by
    intro a b' h w
    funext β
    match β with
    | ⟨0, _⟩ => rfl
    | ⟨1, _⟩ => rfl
  unfold Ideal.hostReduceAdd
  refine congrArg (init + ·) ?_
  rw [Finset.sum_filter, Cert.IndexSums.sum_idx4]
  refine (Finset.sum_eq_single b (fun a _ hab => ?_) (fun h => absurd (Finset.mem_univ _) h)).trans ?_
  · refine Finset.sum_eq_zero fun b' _ => Finset.sum_eq_zero fun h _ => Finset.sum_eq_zero fun w _ => if_neg fun e => hab ?_
    exact congrFun ((hdrop a b' h w).symm.trans e) 0
  refine (Finset.sum_eq_single c (fun b' _ hbc => ?_) (fun h => absurd (Finset.mem_univ _) h)).trans ?_
  · refine Finset.sum_eq_zero fun h _ => Finset.sum_eq_zero fun w _ => if_neg fun e => hbc ?_
    exact congrFun ((hdrop b b' h w).symm.trans e) 1
  refine Finset.sum_congr rfl fun h _ => Finset.sum_congr rfl fun w _ => ?_
  rw [if_pos (hdrop b c h w)]

end Cert.Similarity

end
-- ==== Proof.LibKeepdimsSum.lean ====
/-
  A row sum kept as a column, read at an index.

  `jnp.sum(x, axis=-1, keepdims=True)` of an `[a, b]` matrix is computed as a sum along the last axis into an `[a]`
  vector, which a shape cast then stands up as an `[a, 1]` column. Over the extended reals the sum from the zero
  accumulator is the plain finite sum of the row, so the column's entry at `(p, 0)` is Σ_k x[p, k].
-/
import Idealize.ShloMosaic.Lib.ValueLayout
import Idealize.ShloMosaic.PureOps.Ideal.Laws

namespace Cert.KeepdimsSum

open Idealize.ShloMosaic Idealize.ShloMosaic.ValueIdx

variable {α : Type}

/-- An `[a]` vector cast to an `[a, 1]` column reads, at `(p, u)`, the vector's entry `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A float sum along the last axis of an `[a, b]` matrix from the zero accumulator, read over the extended reals:
    entry `p` of the result is the finite sum of row `p`. -/
theorem rowSum_apply {a b : ℕ} (src : FVec Ideal (⟨2, ![a, b]⟩ : Shape) .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun c => Fin.ext ?_)
  match c with
  | ⟨0, _⟩ => rfl
  | ⟨1, _⟩ => rfl

/-- The same sum kept as an `[a, 1]` column: its entry at `(p, u)` is the finite sum of row `p`. -/
theorem rowSum_column_apply {a b : ℕ} (src : FVec Ideal (⟨2, ![a, b]⟩ : Shape) .f32)
    (h : (⟨2, ![a, b]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ src 0x00000000#32 h hφ hacc) hc (ix2 p u)
      = ∑ k : Fin b, src (ix2 p k) :=
  (shapeCast_a_a1_apply _ hc p u).trans (rowSum_apply src h hφ hacc p)

end Cert.KeepdimsSum
-- ==== Proof.LibColumnBroadcast.lean ====
/-
  A column broadcast along the rows of a matrix, read at an index.

  A vector kept as an `[a, 1]` column (one entry per row) and broadcast to `[a, b]` repeats each row's entry across
  that row: at `(p, c)` the result is the column's entry of row `p`, whatever the column `c`. This is the form a
  per-row scale, bias or divisor takes before it meets an `[a, b]` matrix elementwise.
-/
import Idealize.ShloMosaic.Lib.ValueLayout

namespace Idealize.ShloMosaic.ValueIdx

open Idealize.ShloMosaic

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibPlainDot.lean ====
/-
  A plain matrix product's contraction sum, read at an index.

  For the dimension numbers of an `[M, K] × [K, N] → [M, N]` product — the left operand contracted on its second
  axis, the right on its first, no batch axis — the contraction index has one coordinate, ranging over `Fin K`; at the
  result index `(r, c)` and contraction position `k` the left operand is read at `(r, k)` and the right at `(k, c)`.
  So a sum over the contraction index of any function of the two operand indices is the sum over `k : Fin K` of that
  function at `(r, k)` and `(k, c)`. Both a kernel's matrix unit product into a zero accumulator and the host's
  `dot_general` are such sums over the extended reals (of the products of the operands' entries), so this is the one
  re-indexing either needs.
-/
import Idealize.ShloMosaic.PureOps.Dims
import Idealize.ShloMosaic.Lib.ValueIdx

namespace Idealize.ShloMosaic.PlainDot

open Idealize.ShloMosaic Idealize.ShloMosaic.ValueIdx

/-- The left operand's index at result index `(r, c)` and contraction position `k` is `(r, k)`, the right operand's
    `(k, c)`, for any record with the plain product's dimension numbers; `e` is the bijection between the contraction
    index and `Fin K`. -/
theorem plain_idx {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (r : Fin M) (c : Fin N) (k : Fin K) :
    d.lhsIdx (ix2 r c) ((contrEquiv1 d K hr hs).symm k) = ix2 r k
      ∧ d.rhsIdx (ix2 r c) ((contrEquiv1 d K hr hs).symm k) = ix2 k c := by
  constructor
  · funext a
    refine Fin.ext ?_
    match a with
    | ⟨0, _⟩ =>
      show (d.lhsIdx (ix2 r c) ((contrEquiv1 d K hr hs).symm k) 0).val = r.val
      unfold DotDims.lhsIdx
      rw [dif_neg (by rw [h5]; exact List.not_mem_nil), dif_pos (by rw [h3]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 0 _ (by decide) (by simp [h5, h3])
    | ⟨1, _⟩ =>
      show (d.lhsIdx (ix2 r c) ((contrEquiv1 d K hr hs).symm k) 1).val = k.val
      rw [d.lhsIdx_val_of_single h1]
      exact contrEquiv1_symm_val d K hr hs k
  · funext a
    refine Fin.ext ?_
    match a with
    | ⟨0, _⟩ =>
      show (d.rhsIdx (ix2 r c) ((contrEquiv1 d K hr hs).symm k) 0).val = k.val
      rw [d.rhsIdx_val_of_single h2]
      exact contrEquiv1_symm_val d K hr hs k
    | ⟨1, _⟩ =>
      show (d.rhsIdx (ix2 r c) ((contrEquiv1 d K hr hs).symm k) 1).val = c.val
      unfold DotDims.rhsIdx
      rw [dif_neg (by rw [h6]; exact List.not_mem_nil), dif_pos (by rw [h4]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 1 _ (by decide) (by simp [h5, h3, h4])

/-- THE CONTRACTION SUM OF A PLAIN PRODUCT at `(r, c)`: the sum over `k : Fin K` at the operand indices `(r, k)` and
    `(k, c)`, in any commutative additive monoid. -/
theorem plain_sum {β : Type*} [AddCommMonoid β] {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K)
    (f : (⟨2, ![M, K]⟩ : Shape).Idx → (⟨2, ![K, N]⟩ : Shape).Idx → β) (r : Fin M) (c : Fin N) :
    ∑ q : d.contr.Idx, f (d.lhsIdx (ix2 r c) q) (d.rhsIdx (ix2 r c) q) = ∑ k : Fin K, f (ix2 r k) (ix2 k c) := by
  rw [← Equiv.sum_comp (contrEquiv1 d K hr hs).symm]
  refine Finset.sum_congr rfl fun k _ => ?_
  obtain ⟨hl, hr'⟩ := plain_idx d h1 h2 h3 h4 h5 h6 hr hs r c k
  rw [hl, hr']

end Idealize.ShloMosaic.PlainDot
-- ==== Proof.Payloads.lean ====
/-
  What each of the three kernel bodies stores, read at one index over the extended reals.

    * The image-pooling body loads a [64, 128, 256] block, sums its last axis and multiplies by 2⁻⁸: at (p, q) it
      stores (Σ_k v[p, q, k]) · 2⁻⁸.
    * The radiomics-pooling body loads a [64, 32, 512] block, sums its middle axis and multiplies by 2⁻⁵: at (p, d)
      it stores (Σ_r v[p, r, d]) · 2⁻⁵.
    * The similarity body loads two [256, 512] matrices A and B; it divides each row by the larger of its Euclidean
      norm and ε (the row's sum of squares is kept as a [256, 1] column, whose square root is floored and broadcast
      back along the row), narrows both to a shorter float format (no change to an extended real), transposes the
      second and multiplies on the matrix unit into a zero accumulator: at (i, j) it stores
      Σ_k u(A)[i, k] · u(B)[j, k], the cosine matrix of the specification.
-/
import proofs.«152457_j10574209483557_2_alg».proof.Proof.Gen.KernelIdeal.Skeleton
import proofs.«152457_j10574209483557_2_alg».proof.Proof.Pooling
import proofs.«152457_j10574209483557_2_alg».proof.Proof.LibKeepdimsSum
import proofs.«152457_j10574209483557_2_alg».proof.Proof.LibColumnBroadcast
import proofs.«152457_j10574209483557_2_alg».proof.Proof.LibPlainDot
import Idealize.ShloMosaic.Lib.Pipeline.Value
import Idealize.ShloMosaic.Lib.ValueLayout
import Idealize.ShloMosaic.PureOps.Ideal.Laws

noncomputable section

open scoped BigOperators

namespace Cert.KernelIdeal.Payload

open Cert.KernelIdeal Cert.KernelIdeal.Gen Cert.Similarity
open Idealize.ShloMosaic Idealize.ShloMosaic.ValueIdx

/-! ## The two pooling bodies -/

/-- The image-pooling body at (p, q): the sum of the block's 256 entries behind (p, q), times 2⁻⁸. -/
theorem pool_image_apply (v : Vec Ideal S64x128x256 .f32) (p : Fin 64) (q : Fin 128) :
    k0_pay1 (F := Ideal) v (ix2 p q) = (∑ k : Fin 256, v (ix3 p q k)) * Ideal.ofBits .f32 0x3B800000#32 := by
  unfold k0_pay1
  dsimp only
  refine congrArg (· * Ideal.ofBits .f32 0x3B800000#32) ?_
  refine (Ideal.multiReduction_add_single _ 0x00000000#32 reduces_S64x128x256_S64x128 (.inl rfl) rfl (ix2 p q)).trans ?_
  refine Finset.sum_congr rfl fun k _ => ?_
  rw [shapeCast_self]
  exact congrArg v (funext fun a => Fin.ext (by match a with | ⟨0, _⟩ => rfl | ⟨1, _⟩ => rfl | ⟨2, _⟩ => rfl))

/-- The radiomics-pooling body at (p, d): the sum of the block's 32 entries across the regions, times 2⁻⁵. -/
theorem pool_rad_apply (v : Vec Ideal S64x32x512 .f32) (p : Fin 64) (d : Fin 512) :
    k1_pay1 (F := Ideal) v (ix2 p d) = (∑ r : Fin 32, v (ix3 p r d)) * Ideal.ofBits .f32 0x3D000000#32 := by
  unfold k1_pay1
  dsimp only
  refine congrArg (· * Ideal.ofBits .f32 0x3D000000#32) ?_
  refine (Ideal.multiReduction_add_single _ 0x00000000#32 reduces_S64x32x512_S64x512 (.inl rfl) rfl (ix2 p d)).trans ?_
  refine Finset.sum_congr rfl fun r _ => ?_
  exact congrArg v (funext fun a => Fin.ext (by match a with | ⟨0, _⟩ => rfl | ⟨1, _⟩ => rfl | ⟨2, _⟩ => rfl))

/-! ## The similarity body -/

/-- A matrix with each row divided by the larger of its Euclidean norm and ε, as the similarity body computes it (sum of
    squares along the row, kept as a column; square root; floor; broadcast along the row; quotient), read at (r, k):
    the specification's u(·)[r, k]. -/
theorem unit_apply (v : FVec Ideal S256x512 .f32) (r : Fin 256) (k : Fin 512) :
    divf v (broadcastTo S256x512 (maximumf (sqrt (shapeCast S256x1
        (multiReduction .add [1] S256 (mulf v v) 0x00000000#32 reduces_S256x512_S256 (.inl rfl) rfl) shapeCasts_S256_S256x1))
        (broadcast S256x1 (Scalar.ofBits (F := Ideal) .f32 0x2B8CBCCC#32))) broadcasts_S256x1_S256x512) (ix2 r k)
      = unitRow v r k := by
  show Ideal.div (v (ix2 r k)) (broadcastTo S256x512 _ broadcasts_S256x1_S256x512 (ix2 r k)) = _
  rw [broadcastTo_a1_ab_apply]
  show Ideal.div (v (ix2 r k)) (max (Ideal.sqrt (shapeCast S256x1 _ shapeCasts_S256_S256x1 (ix2 r (0 : Fin 1)))) (Ideal.ofBits .f32 0x2B8CBCCC#32)) = _
  rw [Cert.KeepdimsSum.rowSum_column_apply (mulf v v) reduces_S256x512_S256 (.inl rfl) rfl shapeCasts_S256_S256x1 r 0]
  rfl

/-- The similarity body at (i, j): Σ_k u(A)[i, k] · u(B)[j, k]. -/
theorem sim_apply (a b : FVec Ideal S256x512 .f32) (i j : Fin 256) :
    k2_pay1 (F := Ideal) a b (ix2 i j) = cosine a b (ix2 i j) := by
  unfold k2_pay1
  dsimp only
  rw [shapeCast_self, shapeCast_self]
  simp only [matmul]
  refine (Ideal.matmul_constant_zero_apply dot_S256x512_S512x256_S256x256_1_0_0_1_n_n none _ _ (ix2 i j)).trans ?_
  refine (PlainDot.plain_sum dot_S256x512_S512x256_S256x256_1_0_0_1_n_n rfl rfl rfl rfl rfl rfl rfl rfl
    (fun li ri => (truncf .bf16 _ bitsLt_bf16_f32 : FVec Ideal S256x512 .bf16) li
      * (transpose S512x256 [1, 0] (truncf .bf16 _ bitsLt_bf16_f32 : FVec Ideal S256x512 .bf16) transposes_S256x512_p1_0_S512x256) ri) i j).trans ?_
  rw [cosine_apply]
  refine Finset.sum_congr rfl fun k _ => ?_
  rw [transpose_apply [1, 0] _ transposes_S256x512_p1_0_S512x256 (ix2 k j) (ix2 j k)
    (fun β => by match β with | ⟨0, _⟩ => rfl | ⟨1, _⟩ => rfl)]
  show (divf a _ (ix2 i k)) * (divf b _ (ix2 j k)) = _
  rw [unit_apply a i k, unit_apply b j k]

end Cert.KernelIdeal.Payload

end
-- ==== Proof.ImageCall.lean ====
/-
  The image-pooling call as a whole: the array it leaves is the mean over the 256 flattened positions of the array it reads.

  The call walks a 4 × 4 grid. At point (s, u) it reads rows 64·s … 64·s + 63 and channels 128·u … 128·u + 127 of the
  [256, 512, 256] flattened input (all 256 positions) and writes the same rows and channels of the [256, 512] output. What
  it writes at local position (p, q) is (Σ_k block[p, q, k]) · 2⁻⁸, and block[p, q, k] is the input at
  (64·s + p, 128·u + q, k); so the written block is that block of the one array M(input),
  M(v)[b, c] = (Σ_k v[b, c, k]) · 2⁻⁸. The sixteen blocks cover the output (entry (b, c) lies in the block of point
  (b / 64, c / 128)), hence after the call the output array is M of the input array as the call found it. When the input
  is the row-major flattening of a [256, 512, 16, 16] array x, M of it is the image embedding E₁(x).
-/
import proofs.«152457_j10574209483557_2_alg».proof.Proof.Gen.KernelIdeal.Frame
import proofs.«152457_j10574209483557_2_alg».proof.Proof.Payloads
import Idealize.ShloMosaic.Lib.Pipeline.Value

set_option maxRecDepth 16384

noncomputable section

open scoped BigOperators

namespace Cert.KernelIdeal.ImageCall

open Cert.KernelIdeal Cert.KernelIdeal.Gen Cert.KernelIdeal.Payload Cert.Similarity
open Idealize.ShloMosaic Idealize.ShloMosaic.TcCoe Idealize.ShloMosaic.ValueIdx Idealize.SL.Sem
open Idealize.ShloMosaic.Pipeline (Dat)

/-- M(v)[b, c] = (Σ_k v[b, c, k]) · 2⁻⁸, as a [256, 512] array. -/
def flatMean (v : Flat.Idx → EReal) : Emb.Idx → EReal :=
  fun i => (∑ k : Fin 256, v (ix3 (⟨(i 0).val, idx2_lt0 i⟩ : Fin 256) (⟨(i 1).val, idx2_lt1 i⟩ : Fin 512) k))
    * Ideal.ofBits .f32 0x3B800000#32

/-- M of the row-major flattening of x is the image embedding of x. -/
theorem flatMean_flatten (x : Img.Idx → EReal) (hc : Img.ShapeCasts Flat) : flatMean (shapeCast Flat x hc) = imageEmb x := by
  funext i
  obtain ⟨b, c, rfl⟩ : ∃ (b : Fin 256) (c : Fin 512), i = ix2 b c := ⟨i 0, i 1, eq_ix2 i⟩
  exact flat_mean x hc b c

variable (V : (c : Dev nD) → (b : Ref sig .tc) → Buf (Elt Ideal) ((c : Thread nD τ).loc b))

theorem zeros2 : (![0, 0] : Fin 2 → Nat) = fun _ => 0 := funext fun a => by fin_cases a <;> rfl
theorem zeros3 : (![0, 0, 0] : Fin 3 → Nat) = fun _ => 0 := funext fun a => by fin_cases a <;> rfl

/-- The index maps over the grid: a point's input block and output block sit at the same row and channel offsets, and the
    input block starts at position 0. -/
theorem index_facts : ∀ t : Fin cfg0.N, win0_0.index t (0 : Fin 3) = win0_1.index t (0 : Fin 2)
    ∧ win0_0.index t (1 : Fin 3) = win0_1.index t (1 : Fin 2) ∧ win0_0.index t (2 : Fin 3) = 0 :=
  (by decide +kernel : ∀ t : Fin grid0.N, _)

/-- Every one of the 4 × 4 output blocks is some point's. -/
theorem index_onto : ∀ (q0 q1 : Fin 4), ∃ t : Fin cfg0.N, win0_1.index t = ![q0.val, q1.val] :=
  (by decide +kernel : ∀ (q0 q1 : Fin 4), ∃ t : Fin grid0.N, win0_1.index t = ![q0.val, q1.val])

/-- What point t writes back is block t of M of the input array. -/
theorem flushed_eq (c : Dev nD) (t : Fin cfg0.N) :
    (dat0 V c).flushed 1 t = ((cfg0.win 1).blk t).view.read (Elt Ideal) (flatMean (V c main_v0)) := by
  show (cfg0.win 1).cut (grid0.coords t) ((dat0 V c).after 1 t) = _
  rw [after0_1]
  unfold out0_1
  rw [View.canon_unit_zero zeros2]
  simp only [View.ld_unit_zero (S := S64x128x256) zeros3]
  obtain ⟨e0, e1, e2⟩ := index_facts t
  funext j
  obtain ⟨p, q, rfl⟩ : ∃ (p : Fin 64) (q : Fin 128), j = ix2 p q := ⟨j 0, j 1, eq_ix2 j⟩
  show k0_pay1 (iblk0 V c 0 t) (ix2 p q) = flatMean (V c main_v0) (((cfg0.win 1).blk t).view.emb (ix2 p q))
  refine (pool_image_apply (iblk0 V c 0 t) p q).trans ?_
  unfold flatMean
  refine congrArg (· * Ideal.ofBits .f32 0x3B800000#32) (Finset.sum_congr rfl fun k _ => ?_)
  show V c main_v0 (((cfg0.win 0).blk t).view.emb (ix3 p q k)) = V c main_v0 _
  refine congrArg (V c main_v0) (funext fun a => Fin.ext ?_)
  match a with
  | ⟨0, _⟩ => show win0_0.index t (0 : Fin 3) * 64 + 1 * p.val = win0_1.index t (0 : Fin 2) * 64 + 1 * p.val; omega
  | ⟨1, _⟩ => show win0_0.index t (1 : Fin 3) * 128 + 1 * q.val = win0_1.index t (1 : Fin 2) * 128 + 1 * q.val; omega
  | ⟨2, _⟩ => show win0_0.index t (2 : Fin 3) * 256 + 1 * k.val = k.val; omega

/-- An index of the output array lies in point t's block iff each coordinate lies in the block's range on its axis. -/
theorem mem_block (t : Fin cfg0.N) (i : S256x512.Idx) :
    i ∈ ((cfg0.win 1).blk t).view.set ↔ ∀ a : Fin 2, win0_1.index t a * S64x128.size a ≤ (i a).val ∧ (i a).val < win0_1.index t a * S64x128.size a + S64x128.size a := by
  show i ∈ ((View.whole main_v1).slice (win0_1.rect t)).set ↔ _
  rw [View.set_slice_whole, Rect.mem_set_unit]
  exact Iff.rfl

/-- The sixteen blocks cover the output array. -/
theorem covered (i : S256x512.Idx) :
    ∃ t : Fin cfg0.N, (cfg0.win 1).flush t = true ∧ i ∈ ((cfg0.win 1).blk t).view.set := by
  have hi0 : (i 0).val < 256 := (i 0).isLt
  have hi1 : (i 1).val < 512 := (i 1).isLt
  obtain ⟨t, ht⟩ := index_onto ⟨(i 0).val / 64, by omega⟩ ⟨(i 1).val / 128, by omega⟩
  have q0 : win0_1.index t (0 : Fin 2) = (i 0).val / 64 := congrFun ht 0
  have q1 : win0_1.index t (1 : Fin 2) = (i 1).val / 128 := congrFun ht 1
  refine ⟨t, flush0_1 t, ?_⟩
  rw [mem_block]
  intro a
  match a with
  | ⟨0, _⟩ => show win0_1.index t (0 : Fin 2) * 64 ≤ (i 0).val ∧ (i 0).val < win0_1.index t (0 : Fin 2) * 64 + 64; omega
  | ⟨1, _⟩ => show win0_1.index t (1 : Fin 2) * 128 ≤ (i 1).val ∧ (i 1).val < win0_1.index t (1 : Fin 2) * 128 + 128; omega

/-- After the call its output array is M of its input array. -/
theorem array_eq (c : Dev nD) : (dat0 V c).arrAt 1 cfg0.N = flatMean (V c main_v0) :=
  (dat0 V c).arrAt_eq_of_cover 1 (flatMean (V c main_v0)) (fun t _ => flushed_eq V c t) covered

end Cert.KernelIdeal.ImageCall

end
-- ==== Proof.RadCall.lean ====
/-
  The radiomics-pooling call as a whole: the array it leaves is the radiomics embedding of the array it reads.

  The call walks four grid points. At point t it reads rows 64·t … 64·t + 63 of the [256, 32, 512] input (all regions, all
  features) and writes rows 64·t … 64·t + 63 of the [256, 512] output. What it writes at local position (p, d) is
  (Σ_r block[p, r, d]) · 2⁻⁵, and block[p, r, d] is the input at (64·t + p, r, d); so the written block is exactly rows
  64·t … of the one array E₂(input). The four blocks cover every row (row b lies in the block of point b / 64), hence after
  the call the output array is E₂ of the input array as the call found it.
-/
import proofs.«152457_j10574209483557_2_alg».proof.Proof.Gen.KernelIdeal.Frame
import proofs.«152457_j10574209483557_2_alg».proof.Proof.Payloads
import Idealize.ShloMosaic.Lib.Pipeline.Value

set_option maxRecDepth 16384

noncomputable section

open scoped BigOperators

namespace Cert.KernelIdeal.RadCall

open Cert.KernelIdeal Cert.KernelIdeal.Gen Cert.KernelIdeal.Payload Cert.Similarity
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl
theorem zeros3 : (![0, 0, 0] : Fin 3 → Nat) = fun _ => 0 := funext fun a => by fin_cases a <;> rfl

/-- The index maps over the grid: the input block and the output block of a point sit at the same row offset, the input
    block starts at region 0 and feature 0, the output block at feature 0. -/
theorem index_facts : ∀ t : Fin cfg1.N, win1_0.index t (0 : Fin 3) = win1_1.index t (0 : Fin 2)
    ∧ win1_0.index t (1 : Fin 3) = 0 ∧ win1_0.index t (2 : Fin 3) = 0 ∧ win1_1.index t (1 : Fin 2) = 0 :=
  (by decide +kernel : ∀ t : Fin grid1.N, _)

/-- Every one of the four row blocks is some point's. -/
theorem index_onto : ∀ q : Fin 4, ∃ t : Fin cfg1.N, win1_1.index t = ![q.val, 0] :=
  (by decide +kernel : ∀ q : Fin 4, ∃ t : Fin grid1.N, win1_1.index t = ![q.val, 0])

/-- What point t writes back is block t of E₂ of the input array. -/
theorem flushed_eq (c : Dev nD) (t : Fin cfg1.N) :
    (dat1 V c).flushed 1 t = ((cfg1.win 1).blk t).view.read (Elt Ideal) (radEmb (V c main_arg1)) := by
  show (cfg1.win 1).cut (grid1.coords t) ((dat1 V c).after 1 t) = _
  rw [after1_1]
  unfold out1_1
  rw [View.canon_unit_zero zeros2]
  simp only [View.ld_unit_zero (S := S64x32x512) zeros3]
  obtain ⟨e0, e1, e2, e3⟩ := index_facts t
  funext j
  obtain ⟨p, d, rfl⟩ : ∃ (p : Fin 64) (d : Fin 512), j = ix2 p d := ⟨j 0, j 1, eq_ix2 j⟩
  show k1_pay1 (iblk1 V c 0 t) (ix2 p d) = radEmb (V c main_arg1) (((cfg1.win 1).blk t).view.emb (ix2 p d))
  refine (pool_rad_apply (iblk1 V c 0 t) p d).trans ?_
  refine Eq.trans ?_ (rad_mean (V c main_arg1) _ _)
  refine congrArg (· * Ideal.ofBits .f32 0x3D000000#32) (Finset.sum_congr rfl fun r _ => ?_)
  show V c main_arg1 (((cfg1.win 0).blk t).view.emb (ix3 p r d)) = V c main_arg1 _
  refine congrArg (V c main_arg1) (funext fun a => Fin.ext ?_)
  match a with
  | ⟨0, _⟩ => show win1_0.index t (0 : Fin 3) * 64 + 1 * p.val = win1_1.index t (0 : Fin 2) * 64 + 1 * p.val; omega
  | ⟨1, _⟩ => show win1_0.index t (1 : Fin 3) * 32 + 1 * r.val = r.val; omega
  | ⟨2, _⟩ => show win1_0.index t (2 : Fin 3) * 512 + 1 * d.val = win1_1.index t (1 : Fin 2) * 512 + 1 * d.val; omega

/-- An index of the output array lies in point t's block iff each coordinate lies in the block's range on its axis. -/
theorem mem_block (t : Fin cfg1.N) (i : S256x512.Idx) :
    i ∈ ((cfg1.win 1).blk t).view.set ↔ ∀ a : Fin 2, win1_1.index t a * S64x512.size a ≤ (i a).val ∧ (i a).val < win1_1.index t a * S64x512.size a + S64x512.size a := by
  show i ∈ ((View.whole main_v2).slice (win1_1.rect t)).set ↔ _
  rw [View.set_slice_whole, Rect.mem_set_unit]
  exact Iff.rfl

/-- The four row blocks cover the output array. -/
theorem covered (i : S256x512.Idx) :
    ∃ t : Fin cfg1.N, (cfg1.win 1).flush t = true ∧ i ∈ ((cfg1.win 1).blk t).view.set := by
  have hi0 : (i 0).val < 256 := (i 0).isLt
  have hi1 : (i 1).val < 512 := (i 1).isLt
  obtain ⟨t, ht⟩ := index_onto ⟨(i 0).val / 64, by omega⟩
  have q0 : win1_1.index t (0 : Fin 2) = (i 0).val / 64 := congrFun ht 0
  have q1 : win1_1.index t (1 : Fin 2) = 0 := congrFun ht 1
  refine ⟨t, flush1_1 t, ?_⟩
  rw [mem_block]
  intro a
  match a with
  | ⟨0, _⟩ => show win1_1.index t (0 : Fin 2) * 64 ≤ (i 0).val ∧ (i 0).val < win1_1.index t (0 : Fin 2) * 64 + 64; omega
  | ⟨1, _⟩ => show win1_1.index t (1 : Fin 2) * 512 ≤ (i 1).val ∧ (i 1).val < win1_1.index t (1 : Fin 2) * 512 + 512; omega

/-- After the call its output array is E₂ of its input array. -/
theorem array_eq (c : Dev nD) : (dat1 V c).arrAt 1 cfg1.N = radEmb (V c main_arg1) :=
  (dat1 V c).arrAt_eq_of_cover 1 (radEmb (V c main_arg1)) (fun t _ => flushed_eq V c t) covered

end Cert.KernelIdeal.RadCall

end
-- ==== Proof.SimCall.lean ====
/-
  The similarity call as a whole: the array it leaves is the cosine matrix of the two arrays it reads.

  The call has one grid point, at which every window's block is its whole array: it reads the two [256, 512] embedding
  matrices A and B entire and writes the [256, 256] output entire. What it writes at (i, j) is Σ_k u(A)[i, k] · u(B)[j, k];
  so after the call the output array is the cosine matrix of the two input arrays as the call found them.
-/
import proofs.«152457_j10574209483557_2_alg».proof.Proof.Gen.KernelIdeal.Frame
import proofs.«152457_j10574209483557_2_alg».proof.Proof.Payloads
import Idealize.ShloMosaic.Lib.Pipeline.Value

set_option maxRecDepth 16384

noncomputable section

open scoped BigOperators

namespace Cert.KernelIdeal.SimCall

open Cert.KernelIdeal Cert.KernelIdeal.Gen Cert.KernelIdeal.Payload Cert.Similarity
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl

/-- The index maps over the grid: every block starts at the origin of its array. -/
theorem index_facts : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

/-- The first input window's block at the one point is the whole first input array. -/
theorem block_left (c : Dev nD) (t : Fin cfg2.N) (y : S256x512.Idx) : iblk2 V c 0 t y = V c main_v1 y := by
  obtain ⟨e0, e1, -, -, -, -⟩ := index_facts t
  show V c main_v1 (((cfg2.win 0).blk t).view.emb y) = V c main_v1 y
  refine congrArg (V c main_v1) (funext fun a => Fin.ext ?_)
  match a with
  | ⟨0, _⟩ => show win2_0.index t (0 : Fin 2) * 256 + 1 * (y 0).val = (y 0).val; omega
  | ⟨1, _⟩ => show win2_0.index t (1 : Fin 2) * 512 + 1 * (y 1).val = (y 1).val; omega

/-- The second input window's block at the one point is the whole second input array. -/
theorem block_right (c : Dev nD) (t : Fin cfg2.N) (y : S256x512.Idx) : iblk2 V c 1 t y = V c main_v2 y := by
  obtain ⟨-, -, e0, e1, -, -⟩ := index_facts t
  show V c main_v2 (((cfg2.win 1).blk t).view.emb y) = V c main_v2 y
  refine congrArg (V c main_v2) (funext fun a => Fin.ext ?_)
  match a with
  | ⟨0, _⟩ => show win2_1.index t (0 : Fin 2) * 256 + 1 * (y 0).val = (y 0).val; omega
  | ⟨1, _⟩ => show win2_1.index t (1 : Fin 2) * 512 + 1 * (y 1).val = (y 1).val; omega

/-- What the one point writes back is (its block of) the cosine matrix of the two input arrays. -/
theorem flushed_eq (c : Dev nD) (t : Fin cfg2.N) :
    (dat2 V c).flushed 2 t = ((cfg2.win 2).blk t).view.read (Elt Ideal) (cosine (V c main_v1) (V c main_v2)) := by
  show (cfg2.win 2).cut (grid2.coords t) ((dat2 V c).after 2 t) = _
  rw [after2_2]
  unfold out2_2
  rw [View.canon_unit_zero zeros2]
  simp only [View.ld_unit_zero (S := S256x512) zeros2]
  obtain ⟨-, -, -, -, e0, e1⟩ := index_facts t
  have hl : (iblk2 V c 0 t : S256x512.Idx → EReal) = V c main_v1 := funext (block_left V c t)
  have hr : (iblk2 V c 1 t : S256x512.Idx → EReal) = V c main_v2 := funext (block_right V c t)
  funext j
  obtain ⟨i, j', rfl⟩ : ∃ (i : Fin 256) (j' : Fin 256), j = ix2 i j' := ⟨j 0, j 1, eq_ix2 j⟩
  show k2_pay1 (iblk2 V c 0 t) (iblk2 V c 1 t) (ix2 i j') = cosine (V c main_v1) (V c main_v2) (((cfg2.win 2).blk t).view.emb (ix2 i j'))
  refine (sim_apply (iblk2 V c 0 t) (iblk2 V c 1 t) i j').trans ?_
  rw [hl, hr]
  refine congrArg (cosine (V c main_v1) (V c main_v2)) (funext fun a => Fin.ext ?_)
  match a with
  | ⟨0, _⟩ => show i.val = win2_2.index t (0 : Fin 2) * 256 + 1 * i.val; omega
  | ⟨1, _⟩ => show j'.val = win2_2.index t (1 : Fin 2) * 256 + 1 * j'.val; omega

/-- An index of the output array lies in point t's block iff each coordinate lies in the block's range on its axis. -/
theorem mem_block (t : Fin cfg2.N) (i : S256x256.Idx) :
    i ∈ ((cfg2.win 2).blk t).view.set ↔ ∀ a : Fin 2, win2_2.index t a * S256x256.size a ≤ (i a).val ∧ (i a).val < win2_2.index t a * S256x256.size a + S256x256.size a := by
  show i ∈ ((View.whole main_v3).slice (win2_2.rect t)).set ↔ _
  rw [View.set_slice_whole, Rect.mem_set_unit]
  exact Iff.rfl

/-- The one block covers the output array. -/
theorem covered (i : S256x256.Idx) :
    ∃ t : Fin cfg2.N, (cfg2.win 2).flush t = true ∧ i ∈ ((cfg2.win 2).blk t).view.set := by
  have hi0 : (i 0).val < 256 := (i 0).isLt
  have hi1 : (i 1).val < 256 := (i 1).isLt
  obtain ⟨-, -, -, -, e0, e1⟩ := index_facts t2_0
  refine ⟨t2_0, flush2_2 t2_0, ?_⟩
  rw [mem_block]
  intro a
  match a with
  | ⟨0, _⟩ => show win2_2.index t2_0 (0 : Fin 2) * 256 ≤ (i 0).val ∧ (i 0).val < win2_2.index t2_0 (0 : Fin 2) * 256 + 256; omega
  | ⟨1, _⟩ => show win2_2.index t2_0 (1 : Fin 2) * 256 ≤ (i 1).val ∧ (i 1).val < win2_2.index t2_0 (1 : Fin 2) * 256 + 256; omega

/-- After the call its output array is the cosine matrix of its two input arrays. -/
theorem array_eq (c : Dev nD) : (dat2 V c).arrAt 2 cfg2.N = cosine (V c main_v1) (V c main_v2) :=
  (dat2 V c).arrAt_eq_of_cover 2 (cosine (V c main_v1) (V c main_v2)) (fun t _ => flushed_eq V c t) covered

end Cert.KernelIdeal.SimCall

end
-- ==== Proof.KernelValue.lean ====
/-
  The idealized kernel's three results as functions of its three arguments.

  Between the program's five segments the buffers hold a chain of valuations (the launch memory; after the host's
  flattening; after each of the three calls; after the closing host operations). Followed buffer by buffer:
    * entering the image call, the flattened buffer holds the row-major flattening of the image features, so after that
      call the image-embedding buffer holds E₁ of the image features; no later segment writes it (the similarity call only
      reads it), so it still holds E₁ at the end;
    * the radiomics features are untouched until the radiomics call reads them, so after that call the radiomics-embedding
      buffer holds E₂ of the radiomics features, and likewise to the end;
    * the similarity call therefore finds E₁ and E₂ in its two input arrays and leaves their cosine matrix in its output;
    * the temperature is untouched throughout, and the closing host operations divide the cosine matrix, entry by entry,
      by the temperature's one entry broadcast over the matrix.
  Read off the run whose final memory holds the last valuation, this gives the run with its results named.
-/
import proofs.«152457_j10574209483557_2_alg».proof.Proof.FrameRunP
import proofs.«152457_j10574209483557_2_alg».proof.Proof.ImageCall
import proofs.«152457_j10574209483557_2_alg».proof.Proof.RadCall
import proofs.«152457_j10574209483557_2_alg».proof.Proof.SimCall
import Idealize.ShloMosaic.Lib.StableHlo.Run

set_option maxRecDepth 16384

noncomputable section

namespace Cert.KernelIdeal.Whole

open Cert.KernelIdeal Cert.KernelIdeal.Gen Cert.Similarity
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- The similarity matrix the program returns: the cosine matrix of the two embeddings divided, entry by entry, by the
    temperature's one entry. -/
def scores (c : Dev nD) : FVec Ideal S256x256 .f32 :=
  Host.divf (F := Ideal) (cosine (imageEmb (m ((c : Thread nD τ).loc main_arg0))) (radEmb (m ((c : Thread nD τ).loc main_arg1))))
    (broadcastInDim S256x256 ![] bcast_S_S256x256 (shapeCast S_ (m ((c : Thread nD τ).loc main_arg2)) shapeCasts_S1_S_))

/-! ## The image embedding -/

/-- Entering the image call, the flattened buffer holds the row-major flattening of the image features. -/
theorem flat_at_entry (c : Dev nD) :
    (V1 m ρ c main_v0 : S256x512x256.Idx → EReal)
      = shapeCast S256x512x256 (m ((c : Thread nD τ).loc main_arg0)) shapeCasts_S256x512x16x16_S256x512x256 := by
  show StableHlo.after hostOps0 (W0 m ρ c) (Proc.devRef .tc main_v0) = _
  after_results
  rfl

/-- After the image call the image-embedding buffer holds E₁ of the image features. -/
theorem image_after_call (c : Dev nD) :
    (W2 m ρ c (Proc.devRef .tc main_v1) : S256x512.Idx → EReal) = imageEmb (m ((c : Thread nD τ).loc main_arg0)) := by
  refine (W2_arr m ρ c 1).trans ?_
  rw [ImageCall.array_eq (V1 m ρ) c, flat_at_entry m ρ c]
  exact ImageCall.flatMean_flatten _ _

/-- The radiomics call does not touch it. -/
theorem image_after_rad (c : Dev nD) :
    (W3 m ρ c (Proc.devRef .tc main_v1) : S256x512.Idx → EReal) = imageEmb (m ((c : Thread nD τ).loc main_arg0)) := by
  rw [W3_of_ne m ρ c main_v1 (by decide)]
  exact image_after_call m ρ c

/-! ## The radiomics embedding -/

/-- The radiomics features are untouched until the radiomics call reads them. -/
theorem rad_at_entry (c : Dev nD) :
    (V2 m ρ c main_arg1 : S256x32x512.Idx → EReal) = m ((c : Thread nD τ).loc main_arg1) := by
  show W2 m ρ c (Proc.devRef .tc main_arg1) = _
  rw [W2_of_ne m ρ c main_arg1 (by decide)]
  show StableHlo.after hostOps0 (W0 m ρ c) (Proc.devRef .tc main_arg1) = _
  after_results

/-- After the radiomics call the radiomics-embedding buffer holds E₂ of the radiomics features. -/
theorem rad_after_call (c : Dev nD) :
    (W3 m ρ c (Proc.devRef .tc main_v2) : S256x512.Idx → EReal) = radEmb (m ((c : Thread nD τ).loc main_arg1)) := by
  refine (W3_arr m ρ c 1).trans ?_
  rw [RadCall.array_eq (V2 m ρ) c, rad_at_entry m ρ c]

/-! ## The similarity call -/

/-- It leaves the cosine matrix of E₁ and E₂ in its output buffer … -/
theorem cosine_after_call (c : Dev nD) :
    (W4 m ρ c (Proc.devRef .tc main_v3) : S256x256.Idx → EReal)
      = cosine (imageEmb (m ((c : Thread nD τ).loc main_arg0))) (radEmb (m ((c : Thread nD τ).loc main_arg1))) := by
  refine (W4_arr m ρ c 2).trans ?_
  rw [SimCall.array_eq (V3 m ρ) c]
  show cosine (W3 m ρ c (Proc.devRef .tc main_v1)) (W3 m ρ c (Proc.devRef .tc main_v2)) = _
  rw [image_after_rad m ρ c, rad_after_call m ρ c]

/-- … and its two input buffers as it found them. -/
theorem image_after_sim (c : Dev nD) :
    (W4 m ρ c (Proc.devRef .tc main_v1) : S256x512.Idx → EReal) = imageEmb (m ((c : Thread nD τ).loc main_arg0)) :=
  ((W4_arr m ρ c 0).trans (((dat2 (V3 m ρ) c).arrAt_in 0 rfl _).trans (A_eq2 (V3 m ρ) c 0))).trans (image_after_rad m ρ c)
theorem rad_after_sim (c : Dev nD) :
    (W4 m ρ c (Proc.devRef .tc main_v2) : S256x512.Idx → EReal) = radEmb (m ((c : Thread nD τ).loc main_arg1)) :=
  ((W4_arr m ρ c 1).trans (((dat2 (V3 m ρ) c).arrAt_in 1 rfl _).trans (A_eq2 (V3 m ρ) c 1))).trans (rad_after_call m ρ c)

/-- The temperature is untouched by the flattening and by the three calls. -/
theorem temperature_kept (c : Dev nD) :
    (W4 m ρ c (Proc.devRef .tc main_arg2) : S1.Idx → EReal) = m ((c : Thread nD τ).loc main_arg2) := by
  rw [W4_of_ne m ρ c main_arg2 (by decide), W3_of_ne m ρ c main_arg2 (by decide), W2_of_ne m ρ c main_arg2 (by decide)]
  show StableHlo.after hostOps0 (W0 m ρ c) (Proc.devRef .tc main_arg2) = _
  after_results

/-! ## After the closing host operations -/

theorem scores_at_end (c : Dev nD) : (W5 m ρ c (Proc.devRef .tc main_v6) : S256x256.Idx → EReal) = scores m c := by
  show StableHlo.after hostOps3 (W4 m ρ c) (Proc.devRef .tc main_v6) = _
  after_results
  rw [cosine_after_call m ρ c, temperature_kept m ρ c]
  rfl

theorem image_at_end (c : Dev nD) :
    (W5 m ρ c (Proc.devRef .tc main_v1) : S256x512.Idx → EReal) = imageEmb (m ((c : Thread nD τ).loc main_arg0)) := by
  show StableHlo.after hostOps3 (W4 m ρ c) (Proc.devRef .tc main_v1) = _
  after_results
  exact image_after_sim m ρ c

theorem rad_at_end (c : Dev nD) :
    (W5 m ρ c (Proc.devRef .tc main_v2) : S256x512.Idx → EReal) = radEmb (m ((c : Thread nD τ).loc main_arg1)) := by
  show StableHlo.after hostOps3 (W4 m ρ c) (Proc.devRef .tc main_v2) = _
  after_results
  exact rad_after_sim m ρ c

/-! ## The run -/

/-- Every weakly fair execution of the idealized kernel terminates without a fault with its three results at the
    temperature-scaled cosine matrix, E₁ of the image features and E₂ of the radiomics features, and its arguments as
    launched. -/
theorem run : θ_run defs (onTc (τ := τ) (main (F := Ideal))) ⟨m, fun _ => 0, ρ⟩ (fun r => ∀ c : Dev nD,
      r.2.mem ((c.tc : Thread nD τ).loc main_v6) = scores m c
      ∧ r.2.mem ((c.tc : Thread nD τ).loc main_v1) = imageEmb (m ((c.tc : Thread nD τ).loc main_arg0))
      ∧ r.2.mem ((c.tc : Thread nD τ).loc main_v2) = radEmb (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨(h c _ (mem_uc main_v6 (by decide))).trans (scores_at_end m ρ c),
       (h c _ (mem_uc main_v1 (by decide))).trans (image_at_end m ρ c),
       (h c _ (mem_uc main_v2 (by decide))).trans (rad_at_end m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)
    (Cert.KernelIdeal.GenP.run_valuation m ρ)

end Cert.KernelIdeal.Whole

end
-- ==== Proof.RefValue.lean ====
/-
  The reference program computes the specification.

  Read one operation at a time, the reference's image embedding is at (b, c) the host's sum of x[b, c, ·, ·] over the two
  spatial axes (from the initial value 0) divided by 256, which is E₁[b, c]; its radiomics embedding is at (b, d) the
  sum of y[b, ·, d] (from 0) divided by 32, which is E₂[b, d]; each embedding's rows are divided by the row's Euclidean
  norm floored at ε, entry by entry u(E)[r, k]; and its contraction of the two normalised matrices over their second
  axes is at (i, j) the sum Σ_k u(E₁)[i, k] · u(E₂)[j, k], the cosine matrix C[i, j].
-/
import proofs.«152457_j10574209483557_2_alg».proof.Proof.Gen.ReferenceIdeal.Read
import proofs.«152457_j10574209483557_2_alg».proof.Proof.Pooling

noncomputable section

open scoped BigOperators

namespace Cert.ReferenceIdeal.RefValue

open Cert.ReferenceIdeal Cert.ReferenceIdeal.Gen Cert.ReferenceIdeal.Read Cert.Similarity
open Idealize.ShloMosaic Idealize.ShloMosaic.ValueIdx

/-- The reference's image embedding is E₁. -/
theorem image_emb (x : FVec Ideal S256x512x16x16 .f32) : val_main_v2 (F := Ideal) x = imageEmb x := by
  funext i
  obtain ⟨b, c, rfl⟩ : ∃ (b : Fin 256) (c : Fin 512), i = ix2 b c := ⟨i 0, i 1, eq_ix2 i⟩
  rw [val_main_v2_apply, val_main_v1_apply, val_main_cst_0_apply, imageEmb_apply]
  unfold val_main_v0
  simp only [Host.reduceAdd, Ideal.hostReduceAdd_def]
  rw [hostSum_hw, val_main_cst_apply]
  simp only [Ideal.hostDivf_def, Ideal.ofBits_def, Ideal.ofBits_zero_f32, zero_add]
  rfl

/-- The reference's radiomics embedding is E₂. -/
theorem rad_emb (y : FVec Ideal S256x32x512 .f32) : val_main_v5 (F := Ideal) y = radEmb y := by
  funext i
  obtain ⟨b, d, rfl⟩ : ∃ (b : Fin 256) (d : Fin 512), i = ix2 b d := ⟨i 0, i 1, eq_ix2 i⟩
  have hidx : ∀ r : Fin 32, idx_main_v3 (ix2 b d) r = ix3 b r d := fun r =>
    funext fun a => Fin.ext (by match a with | ⟨0, _⟩ => rfl | ⟨1, _⟩ => rfl | ⟨2, _⟩ => rfl)
  rw [val_main_v5_apply, val_main_v4_apply, val_main_cst_2_apply, val_main_v3_apply, val_main_cst_1_apply, radEmb_apply]
  simp only [hidx, Ideal.hostDivf_def, Ideal.ofBits_def, Ideal.ofBits_zero_f32, zero_add]
  rfl

/-- The reference's normalised image embedding at (r, k) is u(E₁)[r, k]. -/
theorem image_unit (x : FVec Ideal S256x512x16x16 .f32) (r : Fin 256) (k : Fin 512) :
    val_main_v10 (F := Ideal) x (ix2 r k) = unitRow (imageEmb x) r k := by
  have hidx : ∀ k' : Fin 512, idx_main_call0_v1 (idx_main_call0_v2 (idx_main_v9 (ix2 r k))) k' = ix2 r k' := fun k' =>
    funext fun a => Fin.ext (by match a with | ⟨0, _⟩ => rfl | ⟨1, _⟩ => rfl)
  rw [val_main_v10_apply, val_main_v9_apply, val_main_v8_apply, val_main_v7_apply, val_main_cst_3_apply, val_main_v6_apply,
    val_main_call0_v2_apply, val_main_call0_v1_apply, val_main_call0_cst_apply]
  simp only [hidx, val_main_call0_v0_apply, image_emb, Ideal.hostDivf_def, Ideal.maximumf_def, Ideal.hostUnary_sqrt_def,
    Ideal.mulf_def, Ideal.ofBits_def, Ideal.ofBits_zero_f32, zero_add]
  rfl

/-- The reference's normalised radiomics embedding at (r, k) is u(E₂)[r, k]. -/
theorem rad_unit (y : FVec Ideal S256x32x512 .f32) (r : Fin 256) (k : Fin 512) :
    val_main_v15 (F := Ideal) y (ix2 r k) = unitRow (radEmb y) r k := by
  have hidx : ∀ k' : Fin 512, idx_main_call1_v1 (idx_main_call1_v2 (idx_main_v14 (ix2 r k))) k' = ix2 r k' := fun k' =>
    funext fun a => Fin.ext (by match a with | ⟨0, _⟩ => rfl | ⟨1, _⟩ => rfl)
  rw [val_main_v15_apply, val_main_v14_apply, val_main_v13_apply, val_main_v12_apply, val_main_cst_4_apply, val_main_v11_apply,
    val_main_call1_v2_apply, val_main_call1_v1_apply, val_main_call1_cst_apply]
  simp only [hidx, val_main_call1_v0_apply, rad_emb, Ideal.hostDivf_def, Ideal.maximumf_def, Ideal.hostUnary_sqrt_def,
    Ideal.mulf_def, Ideal.ofBits_def, Ideal.ofBits_zero_f32, zero_add]
  rfl

/-- The reference's contraction of the two normalised embeddings is the cosine matrix of E₁ and E₂. -/
theorem cosine_eq (x : FVec Ideal S256x512x16x16 .f32) (y : FVec Ideal S256x32x512 .f32) :
    val_main_v16 (F := Ideal) x y = cosine (imageEmb x) (radEmb y) := by
  funext i
  obtain ⟨r, c, rfl⟩ : ∃ (r : Fin 256) (c : Fin 256), i = ix2 r c := ⟨i 0, i 1, eq_ix2 i⟩
  rw [val_main_v16_apply, cosine_apply]
  refine Finset.sum_congr rfl fun k _ => ?_
  have hl : lidx_main_v16 (ix2 r c) k = ix2 r k := funext fun a => Fin.ext (by match a with | ⟨0, _⟩ => rfl | ⟨1, _⟩ => rfl)
  have hr : ridx_main_v16 (ix2 r c) k = ix2 c k := funext fun a => Fin.ext (by match a with | ⟨0, _⟩ => rfl | ⟨1, _⟩ => rfl)
  rw [hl, hr, image_unit, rad_unit]

end Cert.ReferenceIdeal.RefValue

end
-- ==== Proof.lean ====
/-
  The claim: the kernel, its idealization and the idealized reference each run to completion leaving their arguments
  unchanged, and over the extended reals the idealized kernel and the idealized reference return the same three arrays.

  Both programs return, for image features x : [256, 512, 16, 16], radiomics features y : [256, 32, 512] and a
  temperature t : [1]:
    * the image embedding E₁[b, c] = (Σ_h Σ_w x[b, c, h, w]) / 256,
    * the radiomics embedding E₂[b, d] = (Σ_r y[b, r, d]) / 32,
    * the similarity scores C[i, j] / t[0], where C[i, j] = Σ_k u(E₁)[i, k] · u(E₂)[j, k] and u divides each row of a matrix
      by the larger of its Euclidean norm and a small constant ε.
  The reference computes exactly these expressions with host operations. The kernel flattens the two spatial axes, takes
  each mean as a sum times a power of two (in two tiled calls), and computes C in a third call by a matrix product of the
  two normalised matrices, the second transposed, after narrowing them to a shorter float format; the final division by
  the temperature is the same host operation in both programs. Over the extended reals: narrowing a float is the identity;
  the matrix product into a zero accumulator and the host's contraction are the same finite sum; a finite sum does not
  depend on how its index set is split (256 flat positions against 16 × 16); and multiplying by 2⁻⁸ or 2⁻⁵ is dividing by 256
  or 32 for every extended real, the infinities included. None of these steps needs the inputs to be finite, so the
  precondition is not used for the equality of the results.

  The modules: Pooling (the specification and the algebra of the means), RefValue (the reference computes the
  specification), Payloads (what each kernel body stores, at an index), ImageCall / RadCall / SimCall (what each call leaves
  in its output array), KernelValue (the three results carried through the program's segments). The idealization rewrote no
  operation of the kernel, so there is nothing to state for it.
-/
import proofs.«152457_j10574209483557_2_alg».proof.Defs
import proofs.«152457_j10574209483557_2_alg».proof.Proof.Gen.Kernel
import proofs.«152457_j10574209483557_2_alg».proof.Proof.Gen.Kernel.Frame
import proofs.«152457_j10574209483557_2_alg».proof.Proof.Gen.KernelIdeal
import proofs.«152457_j10574209483557_2_alg».proof.Proof.Gen.KernelIdeal.Frame
import proofs.«152457_j10574209483557_2_alg».proof.Proof.Gen.ReferenceIdeal
import proofs.«152457_j10574209483557_2_alg».proof.Proof.Gen.ReferenceIdeal.Read
import proofs.«152457_j10574209483557_2_alg».proof.Proof.Gen.Pre_finite_inputs
import proofs.«152457_j10574209483557_2_alg».proof.Proof.KernelValue
import proofs.«152457_j10574209483557_2_alg».proof.Proof.RefValue
import Idealize.ShloMosaic.Adequacy
import Idealize.ShloMosaic.Init

noncomputable section

namespace Cert.Proof

open Idealize.ShloMosaic Idealize.SL.Sem

/-- The kernel as printed runs to completion and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the idealized reference: its run with the three results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- Over the extended reals the two idealized programs, run from memories that agree on the arguments, end with the same
    three results: the temperature-scaled cosine matrix, E₁ and E₂ of the shared arguments. -/
theorem algebraic : Cert.algebraic_KernelIdeal_ReferenceIdeal := by
  intro m ρ m' ρ' _ hagree
  refine ⟨fun c => Cert.KernelIdeal.Whole.scores m c,
    fun c => Cert.Similarity.imageEmb (m ((c.tc : Thread Cert.KernelIdeal.nD Cert.KernelIdeal.τ).loc Cert.KernelIdeal.main_arg0)),
    fun c => Cert.Similarity.radEmb (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ?_) (Cert.ReferenceIdeal.Value.run (F := Ideal) m' ρ')
  obtain ⟨h19, h2, h5, hargs⟩ := h c
  obtain ⟨a0, a1, a2⟩ := hagree c
  refine ⟨?_, ?_, ?_, hargs⟩
  · rw [h19, Cert.ReferenceIdeal.Read.val_main_v19_eq, a0, a1, a2]
    show Host.divf (Cert.ReferenceIdeal.Read.val_main_v16 _ _) (Cert.ReferenceIdeal.Read.val_main_v18 _) = _
    rw [Cert.ReferenceIdeal.RefValue.cosine_eq]
    rfl
  · rw [h2, Cert.ReferenceIdeal.Read.val_main_v2_eq, a0, Cert.ReferenceIdeal.RefValue.image_emb]
  · rw [h5, Cert.ReferenceIdeal.Read.val_main_v5_eq, a1, Cert.ReferenceIdeal.RefValue.rad_emb]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
